-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S1024x512 : Shape := ⟨2, ![1024, 512]⟩
abbrev S1x512 : Shape := ⟨2, ![1, 512]⟩
abbrev S512x1 : Shape := ⟨2, ![512, 1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  main_v18

def fn {F : FTy → Type} [FloatOps F] (main_arg0 : FVec F S32x2048x1024 .f32) (main_arg1 : FVec F S1024x512 .f32) (main_arg2 : FVec F S1x512 .f32) (main_arg3 : FVec F S512x1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_v13 main_v16
-- ==== Kernel.lean ====
abbrev S32x2048x1024 : Shape := ⟨3, ![32, 2048, 1024]⟩
abbrev S1024x512 : Shape := ⟨2, ![1024, 512]⟩
abbrev S1x512 : Shape := ⟨2, ![1, 512]⟩
abbrev S512x1 : Shape := ⟨2, ![512, 1]⟩
abbrev S32x2048x1 : Shape := ⟨3, ![32, 2048, 1]⟩
abbrev S1x1024x1024 : Shape := ⟨3, ![1, 1024, 1024]⟩
abbrev S1x1024x1 : Shape := ⟨3, ![1, 1024, 1]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩
abbrev S32x1 : Shape := ⟨2, ![32, 1]⟩
abbrev S32x1x1 : Shape := ⟨3, ![32, 1, 1]⟩

abbrev nBuf : Space → Nat
  | .hbm => 22
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S1024x512, .f32⟩
  | .hbm, ⟨2, _⟩ => ⟨S1x512, .f32⟩
  | .hbm, ⟨3, _⟩ => ⟨S512x1, .f32⟩
  | .hbm, ⟨4, _⟩ => ⟨S1x512, .f32⟩
  | .hbm, ⟨5, _⟩ => ⟨S1024x512, .bf16⟩
  | .hbm, ⟨6, _⟩ => ⟨S32x2048x1, .f32⟩
  | .hbm, ⟨7, _⟩ => ⟨S_, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1x1, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S_, .f32⟩
  | .hbm, ⟨17, _⟩ => ⟨S32x1, .f32⟩
  | .hbm, ⟨18, _⟩ => ⟨S32x1x1, .f32⟩
  | .hbm, ⟨19, _⟩ => ⟨S32x2048x1, .f32⟩
  | .hbm, ⟨20, _⟩ => ⟨S32x2048x1, .f32⟩
  | .hbm, ⟨21, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x512, .bf16⟩
  | .local _ .vmem, ⟨3, _⟩ => ⟨S1x512, .f32⟩
  | .local _ .vmem, ⟨4, _⟩ => ⟨S1x512, .f32⟩
  | .local _ .vmem, ⟨5, _⟩ => ⟨S1x1024x1, .f32⟩
  | .local _ .vmem, ⟨6, _⟩ => ⟨S1x1024x1, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1024, .f32⟩
  | .local _ .vmem, ⟨12, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S512x1_S1x512_1_0 : S512x1.Transposes [1, 0] S1x512
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  shapeCasts_S1x512_S1x512 : S1x512.ShapeCasts S1x512
  reduces_S1024x512_S1024 : S1024x512.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  broadcasts_S1024x1_S1024x1024 : S1024x1.Broadcasts S1024x1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x2048x1024.size a
  hwx0_0 : ∀ i : grid0.Coords, EltTy.bits .f32 = 32 ∨ (Rect.block (s := S32x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S32x2048x1.size a
  hwx0_4 : ∀ i : grid0.Coords, EltTy.bits .f32 = 32 ∨ (Rect.block (s := S32x2048x1) S1x1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S32x2048x1024.size a
  hwx1_0 : ∀ i : grid1.Coords, EltTy.bits .f32 = 32 ∨ (Rect.block (s := S32x2048x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1.size a ≤ S32x2048x1.size a
  hwx1_1 : ∀ i : grid1.Coords, EltTy.bits .f32 = 32 ∨ (Rect.block (s := S32x2048x1) S1x1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S32x2048x1024.size a
  hwx1_2 : ∀ i : grid1.Coords, EltTy.bits .f32 = 32 ∨ (Rect.block (s := S32x2048x1024) S1x1024x1024.size (cc1_transform_2 i) (hinb1_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x2048x1024 : Shape := ⟨3, ![32, 2048, 1024]⟩
abbrev S1024x512 : Shape := ⟨2, ![1024, 512]⟩
abbrev S1x512 : Shape := ⟨2, ![1, 512]⟩
abbrev S512x1 : Shape := ⟨2, ![512, 1]⟩
abbrev S32x2048x512 : Shape := ⟨3, ![32, 2048, 512]⟩
abbrev S1x1x512 : Shape := ⟨3, ![1, 1, 512]⟩
abbrev S32x2048x1 : Shape := ⟨3, ![32, 2048, 1]⟩
abbrev S_ : Shape := ⟨0, ![]⟩
abbrev S32x1 : Shape := ⟨2, ![32, 1]⟩
abbrev S32x1x1 : Shape := ⟨3, ![32, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x512, .f32⟩
  | .hbm, ⟨2, _⟩ => ⟨S1x512, .f32⟩
  | .hbm, ⟨3, _⟩ => ⟨S512x1, .f32⟩
  | .hbm, ⟨4, _⟩ => ⟨S32x2048x512, .f32⟩
  | .hbm, ⟨5, _⟩ => ⟨S1x1x512, .f32⟩
  | .hbm, ⟨6, _⟩ => ⟨S32x2048x512, .f32⟩
  | .hbm, ⟨7, _⟩ => ⟨S32x2048x512, .f32⟩
  | .hbm, ⟨8, _⟩ => ⟨S32x2048x512, .f32⟩
  | .hbm, ⟨9, _⟩ => ⟨S32x2048x1, .f32⟩
  | .hbm, ⟨10, _⟩ => ⟨S_, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1x1, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x1, .f32⟩
  | .hbm, ⟨21, _⟩ => ⟨S32x1x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S1x512_S1x1x512_1_2 : S1x512.BroadcastsInDim S1x1x512 (![1, 2] : Fin 2 → Fin S1x1x512.rank)
  bcast_S1x1x512_S32x2048x512_0_1_2 : S1x1x512.BroadcastsInDim S32x2048x512 (![0, 1, 2] : Fin 3 → Fin S32x2048x512.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  dot_S32x2048x1024_S1024x512_S32x2048x512_2_0_01_1_n_n_wf : DotDims.WF S32x2048x1024 S1024x512 S32x2048x512 [2] [0] [0, 1] [1] [] []
  dot_S32x2048x512_S512x1_S32x2048x1_2_0_01_1_n_n_wf : DotDims.WF S32x2048x512 S512x1 S32x2048x1 [2] [0] [0, 1] [1] [] []

variable [Facts₀]

def dot_S32x2048x1024_S1024x512_S32x2048x512_2_0_01_1_n_n : DotDims S32x2048x1024 S1024x512 S32x2048x512 where
  lhsContracting := [2]
  rhsContracting := [0]
  lhsNonContracting := [0, 1]
  rhsNonContracting := [1]
  lhsBatch := []
  rhsBatch := []
  wf := dot_S32x2048x1024_S1024x512_S32x2048x512_2_0_01_1_n_n_wf
def dot_S32x2048x512_S512x1_S32x2048x1_2_0_01_1_n_n : DotDims S32x2048x512 S512x1 S32x2048x1 where
  lhsContracting := [2]
  rhsContracting := [0]
  lhsNonContracting := [0, 1]
  rhsNonContracting := [1]
  lhsBatch := []
  rhsBatch := []
  wf := dot_S32x2048x512_S512x1_S32x2048x1_2_0_01_1_n_n_wf

class Facts : Prop extends Facts₀ where

variable [Facts]
-- ==== Proof.KernelRun.lean ====
/-
  The kernel program's run with its two results named.

  The program is a stretch of host operations, the score region, the softmax's host operations, the re-weighting
  region.  Its frame proof follows the contents of every buffer from segment to segment; here the same chain of
  segments is launched once more with a stronger reading of the final state: besides the four arguments, the two
  result buffers hold what the last boundary's contents say they hold.
-/
import proofs.«143345_j49520972923438_2_alg».proof.Proof.Gen.KernelIdeal.Frame

set_option maxRecDepth 16384

noncomputable section

namespace Cert.Attention.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the
    last boundary's contents and the four arguments as launched. -/
theorem run_results : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Attention.KernelRun

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.ScoresBody.lean ====
/-
  What the score kernel's body stores, read at one entry.

  The body loads a [1, 1024, 1024] block of H, the whole of W (narrowed to bf16, which at the exact reading is no
  change), the row B and the row Uᵀ, and stores a [1, 1024, 1] block.  Entry (·, r, ·) of that block is
      Σ_d tanh (Σ_k h (0, r, k) · w (k, d) + b (0, d)) · uᵀ (0, d):
  a matrix product accumulated from zero, a row broadcast and added, tanh, a row broadcast and multiplied, the sum
  along the row from zero, and the per-row sums re-laid as a column.
-/
import proofs.«143345_j49520972923438_2_alg».proof.Proof.Gen.KernelIdeal.Skeleton
import proofs.«143345_j49520972923438_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Attention.ScoresBody

open Idealize.ShloMosaic Idealize.ShloMosaic.ValueIdx Cert.KernelIdeal Cert.KernelIdeal.Gen

/-- Where the product's left factor is read: row of the result, contracted coordinate. -/
theorem left_row (j : S1024x512.Idx) (q : dot_S1024x1024_S1024x512_S1024x512_1_0_0_1_n_n.contr.Idx) :
    (dot_S1024x1024_S1024x512_S1024x512_1_0_0_1_n_n.lhsIdx j q 0).val = (j 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem left_contracted (j : S1024x512.Idx) (q : dot_S1024x1024_S1024x512_S1024x512_1_0_0_1_n_n.contr.Idx) :
    (dot_S1024x1024_S1024x512_S1024x512_1_0_0_1_n_n.lhsIdx j q 1).val = (q ⟨0, by decide⟩).val :=
  dot_S1024x1024_S1024x512_S1024x512_1_0_0_1_n_n.lhsIdx_val_of_single rfl j q
/-- Where its right factor is read: contracted coordinate, column of the result. -/
theorem right_contracted (j : S1024x512.Idx) (q : dot_S1024x1024_S1024x512_S1024x512_1_0_0_1_n_n.contr.Idx) :
    (dot_S1024x1024_S1024x512_S1024x512_1_0_0_1_n_n.rhsIdx j q 0).val = (q ⟨0, by decide⟩).val :=
  dot_S1024x1024_S1024x512_S1024x512_1_0_0_1_n_n.rhsIdx_val_of_single rfl j q
theorem right_column (j : S1024x512.Idx) (q : dot_S1024x1024_S1024x512_S1024x512_1_0_0_1_n_n.contr.Idx) :
    (dot_S1024x1024_S1024x512_S1024x512_1_0_0_1_n_n.rhsIdx j q 1).val = (j 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product H-block × W at (r, d): the sum over the 1024 input coordinates, nothing added to it. -/
theorem product_apply (a : FVec Ideal S1024x1024 .bf16) (w : FVec Ideal S1024x512 .bf16) (r : Fin 1024) (d : Fin 512) :
    matmul dot_S1024x1024_S1024x512_S1024x512_1_0_0_1_n_n none a w (constant S1024x512 .f32 0x00000000#32) (ix2 r d)
      = ∑ k : Fin 1024, a (ix2 r k) * w (ix2 k d) := by
  refine (Ideal.matmul_constant_zero_apply dot_S1024x1024_S1024x512_S1024x512_1_0_0_1_n_n none a w (ix2 r d)).trans ?_
  rw [← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 r d) ((ValueIdx.contrEquiv1 dot_S1024x1024_S1024x512_S1024x512_1_0_0_1_n_n 1024 rfl rfl).symm k) = ix2 r k := funext fun ax => Fin.ext (by
    match ax with
    | ⟨0, _⟩ => exact left_row _ _
    | ⟨1, _⟩ => exact (left_contracted _ _).trans hk)
  have er : dot_S1024x1024_S1024x512_S1024x512_1_0_0_1_n_n.rhsIdx (ix2 r d) ((ValueIdx.contrEquiv1 dot_S1024x1024_S1024x512_S1024x512_1_0_0_1_n_n 1024 rfl rfl).symm k) = ix2 k d := funext fun ax => Fin.ext (by
    match ax with
    | ⟨0, _⟩ => exact (right_contracted _ _).trans hk
    | ⟨1, _⟩ => exact right_column _ _)
  rw [el, er]

/-- The sum along a row of a [1024, 512] array from zero, at row r. -/
theorem rowSum_apply (v : FVec Ideal S1024x512 .f32) (hφ : FKind.Formats .f32)
    (hacc : (0x00000000#32 : BitVec 32) = FKind.add.neutral .f32 hφ) (r : Fin 1024) :
    multiReduction .add [1] S1024 v 0x00000000#32 reduces_S1024x512_S1024 hφ hacc (ix1 r) = ∑ d : Fin 512, v (ix2 r d) := by
  refine (Ideal.multiReduction_add_single v 0x00000000#32 reduces_S1024x512_S1024 hφ hacc (ix1 r)).trans ?_
  refine Finset.sum_congr rfl fun d _ => congrArg v (funext fun ax => Fin.ext ?_)
  match ax with
  | ⟨0, _⟩ => rfl
  | ⟨1, _⟩ => rfl

/-- THE STORED BLOCK AT AN ENTRY. -/
theorem stored_apply (h : Vec Ideal S1x1024x1024 .f32) (w : Vec Ideal S1024x512 .bf16) (b : Vec Ideal S1x512 .f32)
    (ut : Vec Ideal S1x512 .f32) (u : Fin 1) (r : Fin 1024) (z : Fin 1) :
    k0_pay1 (F := Ideal) h w b ut (ix3 u r z)
      = ∑ d : Fin 512, Ideal.tanh ((∑ k : Fin 1024, h (ix3 (0 : Fin 1) r k) * w (ix2 k d)) + b (ix2 (0 : Fin 1) d)) * ut (ix2 (0 : Fin 1) d) := by
  unfold k0_pay1
  refine (shapeCast_ab_1ab_apply _ shapeCasts_S1024x1_S1x1024x1 u r z).trans ?_
  refine (Cert.LibColumn.shapeCast_a_a1_apply _ shapeCasts_S1024_S1024x1 r z).trans ?_
  refine (rowSum_apply _ _ _ r).trans ?_
  refine Finset.sum_congr rfl fun d _ => ?_
  show Ideal.tanh (_ + _) * _ = _
  rw [product_apply, broadcastTo_1b_ab_apply, broadcastTo_1b_ab_apply, shapeCast_self, shapeCast_self]
  refine congrArg (fun s => Ideal.tanh (s + b (ix2 (0 : Fin 1) d)) * ut (ix2 (0 : Fin 1) d)) ?_
  refine Finset.sum_congr rfl fun k _ => ?_
  show shapeCast S1024x1024 h shapeCasts_S1x1024x1024_S1024x1024 (ix2 r k) * _ = _
  rw [shapeCast_1ab_ab_apply]

end Cert.Attention.ScoresBody

end
-- ==== Proof.Spec.lean ====
/-
  Additive attention over a batch of 32 sequences of 2048 rows of width 1024, as one function of the four arrays
  H [32, 2048, 1024], W [1024, 512], B [1, 512], U [512, 1]:

    score (b, n)   = Σ_d tanh (Σ_k H (b, n, k) · W (k, d) + B (0, d)) · U (d, 0)
    weight (b, n)  = softmax over n of score (b, ·)
    output (b, n, k) = H (b, n, k) · weight (b, n)

  The softmax is kept as one unopened function of the score array: both programs apply the same chain of host
  operations to their scores, so nothing about it is ever needed beyond its being one function.
-/
import Idealize.ShloMosaic.PureOps
import Idealize.ShloMosaic.PureOps.Ideal
import Idealize.ShloMosaic.Lib.ValueIdx

noncomputable section

namespace Cert.Attention

open Idealize.ShloMosaic Idealize.ShloMosaic.ValueIdx

/-- The shape of the score array: one number per row of every sequence. -/
abbrev Sbn1 : Shape := ⟨3, ![32, 2048, 1]⟩
/-- One number per sequence, and the same with a unit axis put back. -/
abbrev Sb1 : Shape := ⟨2, ![32, 1]⟩
abbrev Sb11 : Shape := ⟨3, ![32, 1, 1]⟩
/-- A scalar. -/
abbrev Sscalar : Shape := ⟨0, ![]⟩
/-- The shapes of the four arguments. -/
abbrev Sbnu : Shape := ⟨3, ![32, 2048, 1024]⟩
abbrev Sud : Shape := ⟨2, ![1024, 512]⟩
abbrev S1d : Shape := ⟨2, ![1, 512]⟩
abbrev Sd1 : Shape := ⟨2, ![512, 1]⟩

theorem reduces_seq : Sbn1.ReducesTo [1] Sb1 := by decide
theorem scalar_pos : 0 < Sscalar.numel := by decide
theorem bcast_scalar : Sscalar.BroadcastsInDim Sb1 (![] : Fin 0 → Fin Sb1.rank) := by decide
theorem bcast_unit : Sb1.BroadcastsInDim Sb11 (![0, 2] : Fin 2 → Fin Sb11.rank) := by decide
theorem bcast_seq : Sb11.BroadcastsInDim Sbn1 (![0, 1, 2] : Fin 3 → Fin Sbn1.rank) := by decide

section Softmax

variable {F : FTy → Type} [FloatOps F]

/-- exp (s − m), m the maximum of each sequence's scores taken from −∞ and spread back over the sequence. -/
def expShifted (s : FVec F Sbn1 .f32) : FVec F Sbn1 .f32 :=
  Host.exp (subf s (broadcastInDim Sbn1 ![0, 1, 2] bcast_seq (broadcastInDim Sb11 ![0, 2] bcast_unit
    (maximumf (broadcastInDim Sb1 ![] bcast_scalar (constant Sscalar .f32 0xFF800000#32))
      (Host.reduce FloatOps.maximumf s (constant Sscalar .f32 0xFF800000#32) reduces_seq scalar_pos)))))

/-- The softmax of each sequence's scores: the shifted exponentials over their sum along the sequence. -/
def softmaxSeq (s : FVec F Sbn1 .f32) : FVec F Sbn1 .f32 :=
  Host.divf (expShifted s) (broadcastInDim Sbn1 ![0, 1, 2] bcast_seq (broadcastInDim Sb11 ![0, 2] bcast_unit
    (Host.reduceAdd (expShifted s) (constant Sscalar .f32 0x00000000#32) reduces_seq scalar_pos)))

end Softmax

/-- The score of row n of sequence b, the last factor given as a function of the hidden coordinate d. -/
def scoreAt (H : Sbnu.Idx → EReal) (W : Sud.Idx → EReal) (B : S1d.Idx → EReal) (u : Fin 512 → EReal)
    (b : Fin 32) (n : Fin 2048) : EReal :=
  ∑ d : Fin 512, Ideal.tanh ((∑ k : Fin 1024, H (ix3 b n k) * W (ix2 k d)) + B (ix2 0 d)) * u d

/-- The score array. -/
def scores (H : Sbnu.Idx → EReal) (W : Sud.Idx → EReal) (B : S1d.Idx → EReal) (U : Sd1.Idx → EReal) : Sbn1.Idx → EReal :=
  fun i => scoreAt H W B (fun d => U (ix2 d 0)) (i 0) (i 1)

/-- Every row of H scaled by its weight. -/
def weighted (H : Sbnu.Idx → EReal) (P : Sbn1.Idx → EReal) : Sbnu.Idx → EReal :=
  fun i => H i * P (ix3 (i 0) (i 1) 0)

/-- The attention weights and the weighted rows, as functions of the four arguments. -/
def weights (H : Sbnu.Idx → EReal) (W : Sud.Idx → EReal) (B : S1d.Idx → EReal) (U : Sd1.Idx → EReal) : Sbn1.Idx → EReal :=
  softmaxSeq (F := Ideal) (scores H W B U)

def output (H : Sbnu.Idx → EReal) (W : Sud.Idx → EReal) (B : S1d.Idx → EReal) (U : Sd1.Idx → EReal) : Sbnu.Idx → EReal :=
  weighted H (weights H W B U)

end Cert.Attention

end
-- ==== Proof.ScoresRegion.lean ====
/-
  The score array after the first kernel region.

  The region runs over a 32 × 2 grid; point (b, h) reads rows 1024·h … 1024·h + 1023 of sequence b of H, the whole
  of W, B and Uᵀ, and writes back the scores of those 1024 rows.  So every write-back is a block of ONE array — the
  score of row n of sequence b at (b, n, 0) — and the 64 blocks tile it: after the region the array is that function
  of the four arrays the region reads, whatever the memory held on entry.
-/
import proofs.«143345_j49520972923438_2_alg».proof.Proof.Gen.KernelIdeal.Frame
import proofs.«143345_j49520972923438_2_alg».proof.Proof.ScoresBody
import proofs.«143345_j49520972923438_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.Attention.ScoresRegion

open Idealize.ShloMosaic.ValueIdx Cert.KernelIdeal Cert.KernelIdeal.Gen

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The scores as a function of the arrays the region reads: H, W, B and the row Uᵀ. -/
def blockScores (H : Sbnu.Idx → EReal) (W : Sud.Idx → EReal) (B : S1d.Idx → EReal) (Ut : S1d.Idx → EReal) : Sbn1.Idx → EReal :=
  fun i => scoreAt H W B (fun d => Ut (ix2 (0 : Fin 1) d)) (i 0) (i 1)

/-- The index maps, decided over the 64 grid points: H's block moves with the output's block along the sequence and
    row-block axes, the other three operands stay at block (0, 0), and the output's block indices are in range. -/
theorem index_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 31 ∧ win0_4.index t (1 : Fin 3) ≤ 1 :=
  (by decide +kernel : ∀ t : Fin grid0.N, _)

/-- Every (sequence, half) pair is some point's output block. -/
theorem index_onto : ∀ (q0 : Fin 32) (q1 : Fin 2), ∃ t : Fin cfg0.N, win0_4.index t = ![q0.val, q1.val, 0] :=
  (by decide +kernel : ∀ (q0 : Fin 32) (q1 : Fin 2), ∃ t : Fin grid0.N, win0_4.index t = ![q0.val, q1.val, 0])

/-- H's block at point t: entry x sits at block index × block size + x on every axis. -/
theorem rows_apply (c : Dev nD) (t : Fin cfg0.N) (x : S1x1024x1024.Idx) (k : S32x2048x1024.Idx)
    (h0 : (k 0).val = win0_0.index t (0 : Fin 3) * 1 + 1 * (x 0).val)
    (h1 : (k 1).val = win0_0.index t (1 : Fin 3) * 1024 + 1 * (x 1).val)
    (h2 : (k 2).val = win0_0.index t (2 : Fin 3) * 1024 + 1 * (x 2).val) :
    (iblk0 V c 0 t : Vec Ideal S1x1024x1024 .f32) x = (V c main_arg0 : S32x2048x1024.Idx → EReal) k := by
  unfold iblk0
  rw [View.read_apply]
  show V c main_arg0 _ = V c main_arg0 _
  refine congrArg (V c main_arg0) (funext fun a => Fin.ext ?_)
  match a with
  | ⟨0, _⟩ => exact h0.symm
  | ⟨1, _⟩ => exact h1.symm
  | ⟨2, _⟩ => exact h2.symm

/-- W's block is the whole of W at every point. -/
theorem w_apply (c : Dev nD) (t : Fin cfg0.N) (x : S1024x512.Idx) :
    (iblk0 V c 1 t : Vec Ideal S1024x512 .bf16) x = (V c main_v1 : S1024x512.Idx → EReal) x := by
  obtain ⟨-, -, -, -, e0, e1, -⟩ := index_facts t
  unfold iblk0
  rw [View.read_apply]
  show V c main_v1 _ = V c main_v1 _
  refine congrArg (V c main_v1) (funext fun a => Fin.ext ?_)
  match a with
  | ⟨0, _⟩ => show win0_1.index t (0 : Fin 2) * 1024 + 1 * (x 0).val = (x 0).val; rw [e0]; omega
  | ⟨1, _⟩ => show win0_1.index t (1 : Fin 2) * 512 + 1 * (x 1).val = (x 1).val; rw [e1]; omega

/-- B's block is the whole of B at every point. -/
theorem b_apply (c : Dev nD) (t : Fin cfg0.N) (x : S1x512.Idx) :
    (iblk0 V c 2 t : Vec Ideal S1x512 .f32) x = (V c main_arg2 : S1x512.Idx → EReal) x := by
  obtain ⟨-, -, -, -, -, -, e0, e1, -⟩ := index_facts t
  unfold iblk0
  rw [View.read_apply]
  show V c main_arg2 _ = V c main_arg2 _
  refine congrArg (V c main_arg2) (funext fun a => Fin.ext ?_)
  match a with
  | ⟨0, _⟩ => show win0_2.index t (0 : Fin 2) * 1 + 1 * (x 0).val = (x 0).val; rw [e0]; omega
  | ⟨1, _⟩ => show win0_2.index t (1 : Fin 2) * 512 + 1 * (x 1).val = (x 1).val; rw [e1]; omega

/-- Uᵀ's block is the whole row at every point. -/
theorem ut_apply (c : Dev nD) (t : Fin cfg0.N) (x : S1x512.Idx) :
    (iblk0 V c 3 t : Vec Ideal S1x512 .f32) x = (V c main_v0 : S1x512.Idx → EReal) x := by
  obtain ⟨-, -, -, -, -, -, -, -, e0, e1, -⟩ := index_facts t
  unfold iblk0
  rw [View.read_apply]
  show V c main_v0 _ = V c main_v0 _
  refine congrArg (V c main_v0) (funext fun a => Fin.ext ?_)
  match a with
  | ⟨0, _⟩ => show win0_3.index t (0 : Fin 2) * 1 + 1 * (x 0).val = (x 0).val; rw [e0]; omega
  | ⟨1, _⟩ => show win0_3.index t (1 : Fin 2) * 512 + 1 * (x 1).val = (x 1).val; rw [e1]; omega

/-- What point t's body stores at entry j of its output block is the score at the array index i under it. -/
theorem block_entry (c : Dev nD) (t : Fin cfg0.N) (j : S1x1024x1.Idx) (i : S32x2048x1.Idx)
    (hi0 : (i 0).val = win0_4.index t (0 : Fin 3) * 1 + 1 * (j 0).val)
    (hi1 : (i 1).val = win0_4.index t (1 : Fin 3) * 1024 + 1 * (j 1).val) :
    k0_pay1 (F := Ideal) (iblk0 V c 0 t) (iblk0 V c 1 t) (iblk0 V c 2 t) (iblk0 V c 3 t) j
      = blockScores (V c main_arg0) (V c main_v1) (V c main_arg2) (V c main_v0) i := by
  obtain ⟨e00, e01, e02, -⟩ := index_facts t
  obtain ⟨u, r, z, rfl⟩ : ∃ (u : Fin 1) (r : Fin 1024) (z : Fin 1), j = ix3 u r z := ⟨j 0, j 1, j 2, eq_ix3 j⟩
  refine (ScoresBody.stored_apply (iblk0 V c 0 t) (iblk0 V c 1 t) (iblk0 V c 2 t) (iblk0 V c 3 t) u r z).trans ?_
  unfold blockScores scoreAt
  refine Finset.sum_congr rfl fun d _ => ?_
  rw [b_apply V c t (ix2 (0 : Fin 1) d), ut_apply V c t (ix2 (0 : Fin 1) d)]
  refine congrArg (fun s => Ideal.tanh (s + (V c main_arg2 : S1x512.Idx → EReal) (ix2 (0 : Fin 1) d)) * (V c main_v0 : S1x512.Idx → EReal) (ix2 (0 : Fin 1) d)) ?_
  refine Finset.sum_congr rfl fun k _ => ?_
  rw [w_apply V c t (ix2 k d)]
  refine congrArg (· * (V c main_v1 : S1024x512.Idx → EReal) (ix2 k d)) ?_
  refine rows_apply V c t (ix3 (0 : Fin 1) r k) (ix3 (i 0) (i 1) k) ?_ ?_ ?_
  · show (i 0).val = win0_0.index t (0 : Fin 3) * 1 + 1 * 0
    have hu : u.val = 0 := by omega
    have : (i 0).val = win0_4.index t (0 : Fin 3) * 1 + 1 * u.val := hi0
    omega
  · show (i 1).val = win0_0.index t (1 : Fin 3) * 1024 + 1 * r.val
    have : (i 1).val = win0_4.index t (1 : Fin 3) * 1024 + 1 * r.val := hi1
    omega
  · show k.val = win0_0.index t (2 : Fin 3) * 1024 + 1 * k.val
    omega

/-- WHAT POINT t WRITES BACK is block t of the score array. -/
theorem flushed_eq (c : Dev nD) (t : Fin cfg0.N) :
    (dat0 V c).flushed 4 t
      = ((cfg0.win 4).blk t).view.read (Elt Ideal) (blockScores (V c main_arg0) (V c main_v1) (V c main_arg2) (V c main_v0)) := by
  show (cfg0.win 4).cut (grid0.coords t) ((dat0 V c).after 4 t) = _
  rw [after0_4]
  unfold out0_4
  rw [View.canon_unit_zero zeros3]
  simp only [View.ld_unit_zero (S := S1x1024x1024) zeros3, View.ld_unit_zero (S := S1024x512) zeros2, View.ld_unit_zero (S := S1x512) zeros2]
  funext j
  show k0_pay1 (F := Ideal) (iblk0 V c 0 t) (iblk0 V c 1 t) (iblk0 V c 2 t) (iblk0 V c 3 t) j
    = blockScores (V c main_arg0) (V c main_v1) (V c main_arg2) (V c main_v0) (((cfg0.win 4).blk t).view.emb j)
  exact block_entry V c t j _ rfl rfl

/-- An index of the score array is in point t's block iff each coordinate is in the block's range on its axis. -/
theorem mem_block (t : Fin cfg0.N) (i : S32x2048x1.Idx) :
    i ∈ ((cfg0.win 4).blk t).view.set ↔ ∀ a : Fin 3, win0_4.index t a * S1x1024x1.size a ≤ (i a).val ∧ (i a).val < win0_4.index t a * S1x1024x1.size a + S1x1024x1.size a := by
  show i ∈ ((View.whole main_v2).slice (win0_4.rect t)).set ↔ _
  rw [View.set_slice_whole, Rect.mem_set_unit]
  exact Iff.rfl

/-- The 64 blocks cover the array: row n of sequence b is in the block of point (b, n / 1024). -/
theorem covered (i : S32x2048x1.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 1 := (i 2).isLt
  obtain ⟨t, ht⟩ := index_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1 ≤ (i 2).val ∧ (i 2).val < win0_4.index t (2 : Fin 3) * 1 + 1; omega

/-- THE SCORE ARRAY after the region. -/
theorem final (c : Dev nD) :
    (dat0 V c).arrAt 4 cfg0.N = blockScores (V c main_arg0) (V c main_v1) (V c main_arg2) (V c main_v0) :=
  (dat0 V c).arrAt_eq_of_cover 4 _ (fun t _ => flushed_eq V c t) covered

end Cert.Attention.ScoresRegion

end
-- ==== Proof.ApplyBody.lean ====
/-
  What the re-weighting kernel's body stores, read at one entry.

  The body loads a [1, 1024, 1024] block of H and the [1, 1024, 1] block of weights of the same rows, spreads each
  row's weight over the row, multiplies, and stores the [1, 1024, 1024] product: entry (·, r, k) is
  h (0, r, k) · p (0, r, 0).
-/
import proofs.«143345_j49520972923438_2_alg».proof.Proof.Gen.KernelIdeal.Skeleton
import proofs.«143345_j49520972923438_2_alg».proof.Proof.LibColumn
import Idealize.ShloMosaic.Lib.Pipeline.Value
import Idealize.ShloMosaic.Lib.ValueIdx
import Idealize.ShloMosaic.Lib.ValueLayout

noncomputable section

namespace Cert.Attention.ApplyBody

open Idealize.ShloMosaic Idealize.ShloMosaic.ValueIdx Cert.KernelIdeal Cert.KernelIdeal.Gen

/-- THE STORED BLOCK AT AN ENTRY. -/
theorem stored_apply (h : Vec Ideal S1x1024x1024 .f32) (p : Vec Ideal S1x1024x1 .f32) (u : Fin 1) (r : Fin 1024) (k : Fin 1024) :
    k1_pay1 (F := Ideal) h p (ix3 u r k) = h (ix3 (0 : Fin 1) r k) * p (ix3 (0 : Fin 1) r (0 : Fin 1)) := by
  unfold k1_pay1
  refine (shapeCast_ab_1ab_apply _ shapeCasts_S1024x1024_S1x1024x1024 u r k).trans ?_
  show shapeCast S1024x1024 h shapeCasts_S1x1024x1024_S1024x1024 (ix2 r k)
      * broadcastTo S1024x1024 (shapeCast S1024x1 p shapeCasts_S1x1024x1_S1024x1) broadcasts_S1024x1_S1024x1024 (ix2 r k) = _
  rw [shapeCast_1ab_ab_apply, Cert.LibColumn.broadcastTo_a1_ab_apply, shapeCast_1ab_ab_apply]

end Cert.Attention.ApplyBody

end
-- ==== Proof.ApplyRegion.lean ====
/-
  The output array after the second kernel region.

  The region runs over the same 32 × 2 grid; point (b, h) reads rows 1024·h … 1024·h + 1023 of sequence b of H and
  the weights of those rows, and writes back the rows scaled by their weights.  Every write-back is a block of one
  array, H (b, n, k) · P (b, n, 0), and the 64 blocks tile it.
-/
import proofs.«143345_j49520972923438_2_alg».proof.Proof.Gen.KernelIdeal.Frame
import proofs.«143345_j49520972923438_2_alg».proof.Proof.ApplyBody
import proofs.«143345_j49520972923438_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.Attention.ApplyRegion

open Idealize.ShloMosaic.ValueIdx Cert.KernelIdeal Cert.KernelIdeal.Gen

variable (V : (c : Dev nD) → (b : Ref sig .tc) → Buf (Elt Ideal) ((c : Thread nD τ).loc b))

theorem zeros3 : (![0, 0, 0] : Fin 3 → Nat) = fun _ => 0 := funext fun a => by fin_cases a <;> rfl

/-- The index maps, decided over the 64 grid points: both input blocks move with the output's block along the
    sequence and row-block axes, and the output's block indices are in range. -/
theorem index_facts : ∀ t : Fin cfg1.N,
    win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = win1_2.index t (1 : Fin 3)
    ∧ win1_1.index t (2 : Fin 3) = 0
    ∧ win1_2.index t (2 : Fin 3) = 0
    ∧ win1_2.index t (0 : Fin 3) ≤ 31 ∧ win1_2.index t (1 : Fin 3) ≤ 1 :=
  (by decide +kernel : ∀ t : Fin grid1.N, _)

/-- Every (sequence, half) pair is some point's output block. -/
theorem index_onto : ∀ (q0 : Fin 32) (q1 : Fin 2), ∃ t : Fin cfg1.N, win1_2.index t = ![q0.val, q1.val, 0] :=
  (by decide +kernel : ∀ (q0 : Fin 32) (q1 : Fin 2), ∃ t : Fin grid1.N, win1_2.index t = ![q0.val, q1.val, 0])

/-- H's block at point t: entry x sits at block index × block size + x on every axis. -/
theorem rows_apply (c : Dev nD) (t : Fin cfg1.N) (x : S1x1024x1024.Idx) (k : S32x2048x1024.Idx)
    (h0 : (k 0).val = win1_0.index t (0 : Fin 3) * 1 + 1 * (x 0).val)
    (h1 : (k 1).val = win1_0.index t (1 : Fin 3) * 1024 + 1 * (x 1).val)
    (h2 : (k 2).val = win1_0.index t (2 : Fin 3) * 1024 + 1 * (x 2).val) :
    (iblk1 V c 0 t : Vec Ideal S1x1024x1024 .f32) x = (V c main_arg0 : S32x2048x1024.Idx → EReal) k := by
  unfold iblk1
  rw [View.read_apply]
  show V c main_arg0 _ = V c main_arg0 _
  refine congrArg (V c main_arg0) (funext fun a => Fin.ext ?_)
  match a with
  | ⟨0, _⟩ => exact h0.symm
  | ⟨1, _⟩ => exact h1.symm
  | ⟨2, _⟩ => exact h2.symm

/-- The weights' block at point t, likewise. -/
theorem weights_apply (c : Dev nD) (t : Fin cfg1.N) (x : S1x1024x1.Idx) (k : S32x2048x1.Idx)
    (h0 : (k 0).val = win1_1.index t (0 : Fin 3) * 1 + 1 * (x 0).val)
    (h1 : (k 1).val = win1_1.index t (1 : Fin 3) * 1024 + 1 * (x 1).val)
    (h2 : (k 2).val = win1_1.index t (2 : Fin 3) * 1 + 1 * (x 2).val) :
    (iblk1 V c 1 t : Vec Ideal S1x1024x1 .f32) x = (V c main_v13 : S32x2048x1.Idx → EReal) k := by
  unfold iblk1
  rw [View.read_apply]
  show V c main_v13 _ = V c main_v13 _
  refine congrArg (V c main_v13) (funext fun a => Fin.ext ?_)
  match a with
  | ⟨0, _⟩ => exact h0.symm
  | ⟨1, _⟩ => exact h1.symm
  | ⟨2, _⟩ => exact h2.symm

/-- What point t's body stores at entry j of its output block is the weighted entry at the array index i under it. -/
theorem block_entry (c : Dev nD) (t : Fin cfg1.N) (j : S1x1024x1024.Idx) (i : S32x2048x1024.Idx)
    (hi0 : (i 0).val = win1_2.index t (0 : Fin 3) * 1 + 1 * (j 0).val)
    (hi1 : (i 1).val = win1_2.index t (1 : Fin 3) * 1024 + 1 * (j 1).val)
    (hi2 : (i 2).val = win1_2.index t (2 : Fin 3) * 1024 + 1 * (j 2).val) :
    k1_pay1 (F := Ideal) (iblk1 V c 0 t) (iblk1 V c 1 t) j = weighted (V c main_arg0) (V c main_v13) i := by
  obtain ⟨e00, e01, e02, e10, e11, e12, e22, -⟩ := index_facts t
  obtain ⟨u, r, k, rfl⟩ : ∃ (u : Fin 1) (r : Fin 1024) (k : Fin 1024), j = ix3 u r k := ⟨j 0, j 1, j 2, eq_ix3 j⟩
  refine (ApplyBody.stored_apply (iblk1 V c 0 t) (iblk1 V c 1 t) u r k).trans ?_
  unfold weighted
  have hu : u.val = 0 := by omega
  have hi0' : (i 0).val = win1_2.index t (0 : Fin 3) * 1 + 1 * u.val := hi0
  have hi1' : (i 1).val = win1_2.index t (1 : Fin 3) * 1024 + 1 * r.val := hi1
  have hi2' : (i 2).val = win1_2.index t (2 : Fin 3) * 1024 + 1 * k.val := hi2
  have hH : (iblk1 V c 0 t : Vec Ideal S1x1024x1024 .f32) (ix3 (0 : Fin 1) r k) = (V c main_arg0 : S32x2048x1024.Idx → EReal) i := by
    refine rows_apply V c t (ix3 (0 : Fin 1) r k) i ?_ ?_ ?_
    · show (i 0).val = win1_0.index t (0 : Fin 3) * 1 + 1 * 0; omega
    · show (i 1).val = win1_0.index t (1 : Fin 3) * 1024 + 1 * r.val; omega
    · show (i 2).val = win1_0.index t (2 : Fin 3) * 1024 + 1 * k.val; omega
  have hP : (iblk1 V c 1 t : Vec Ideal S1x1024x1 .f32) (ix3 (0 : Fin 1) r (0 : Fin 1))
      = (V c main_v13 : S32x2048x1.Idx → EReal) (ix3 (i 0) (i 1) (0 : Fin 1)) := by
    refine weights_apply V c t (ix3 (0 : Fin 1) r (0 : Fin 1)) (ix3 (i 0) (i 1) (0 : Fin 1)) ?_ ?_ ?_
    · show (i 0).val = win1_1.index t (0 : Fin 3) * 1 + 1 * 0; omega
    · show (i 1).val = win1_1.index t (1 : Fin 3) * 1024 + 1 * r.val; omega
    · show 0 = win1_1.index t (2 : Fin 3) * 1 + 1 * 0; omega
  rw [hH, hP]

/-- WHAT POINT t WRITES BACK is block t of the weighted array. -/
theorem flushed_eq (c : Dev nD) (t : Fin cfg1.N) :
    (dat1 V c).flushed 2 t = ((cfg1.win 2).blk t).view.read (Elt Ideal) (weighted (V c main_arg0) (V c main_v13)) := by
  show (cfg1.win 2).cut (grid1.coords t) ((dat1 V c).after 2 t) = _
  rw [after1_2]
  unfold out1_2
  rw [View.canon_unit_zero zeros3]
  simp only [View.ld_unit_zero (S := S1x1024x1024) zeros3, View.ld_unit_zero (S := S1x1024x1) zeros3]
  funext j
  show k1_pay1 (F := Ideal) (iblk1 V c 0 t) (iblk1 V c 1 t) j
    = weighted (V c main_arg0) (V c main_v13) (((cfg1.win 2).blk t).view.emb j)
  exact block_entry V c t j _ rfl rfl rfl

/-- An index of the output array is in point t's block iff each coordinate is in the block's range on its axis. -/
theorem mem_block (t : Fin cfg1.N) (i : S32x2048x1024.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v14).slice (win1_2.rect t)).set ↔ _
  rw [View.set_slice_whole, Rect.mem_set_unit]
  exact Iff.rfl

/-- The 64 blocks cover the array: row n of sequence b is in the block of point (b, n / 1024). -/
theorem covered (i : S32x2048x1024.Idx) : ∃ t : Fin cfg1.N, (cfg1.win 2).flush t = true ∧ i ∈ ((cfg1.win 2).blk t).view.set := by
  have hi0 : (i 0).val < 32 := (i 0).isLt
  have hi1 : (i 1).val < 2048 := (i 1).isLt
  have hi2 : (i 2).val < 1024 := (i 2).isLt
  obtain ⟨t, ht⟩ := index_onto ⟨(i 0).val, hi0⟩ ⟨(i 1).val / 1024, by omega⟩
  have q0 : win1_2.index t (0 : Fin 3) = (i 0).val := congrFun ht 0
  have q1 : win1_2.index t (1 : Fin 3) = (i 1).val / 1024 := congrFun ht 1
  have q2 : win1_2.index t (2 : Fin 3) = 0 := congrFun ht 2
  refine ⟨t, flush1_2 t, ?_⟩
  rw [mem_block]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- THE OUTPUT ARRAY after the region. -/
theorem final (c : Dev nD) : (dat1 V c).arrAt 2 cfg1.N = weighted (V c main_arg0) (V c main_v13) :=
  (dat1 V c).arrAt_eq_of_cover 2 _ (fun t _ => flushed_eq V c t) covered

end Cert.Attention.ApplyRegion

end
-- ==== Proof.KernelValue.lean ====
/-
  The kernel program's two results as functions of its four arguments.

  Followed from the launch: the first host stretch lays U out as a row and narrows W (no change at the exact
  reading); the score region leaves the score array; the second host stretch is the softmax chain applied to it; the
  re-weighting region leaves H scaled row by row with those weights.  H, B are never written, so both regions read
  them as launched.
-/
import proofs.«143345_j49520972923438_2_alg».proof.Proof.KernelRun
import proofs.«143345_j49520972923438_2_alg».proof.Proof.ScoresRegion
import proofs.«143345_j49520972923438_2_alg».proof.Proof.ApplyRegion
import Idealize.ShloMosaic.Lib.StableHlo.Run
import Idealize.ShloMosaic.Lib.ValueLayout

set_option maxRecDepth 16384

noncomputable section

namespace Cert.Attention.KernelValue

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg)

/-! ## What the score region finds -/

theorem entry_H (c : Dev nD) : V1 m ρ c main_arg0 = m ((c.tc : Thread nD τ).loc main_arg0) := by
  show StableHlo.after hostOps0 (W0 m ρ c) (Proc.devRef .tc main_arg0) = _
  after_results

theorem entry_B (c : Dev nD) : V1 m ρ c main_arg2 = m ((c.tc : Thread nD τ).loc main_arg2) := by
  show StableHlo.after hostOps0 (W0 m ρ c) (Proc.devRef .tc main_arg2) = _
  after_results

/-- W narrowed to bf16 is W: at the exact reading a change of format changes nothing. -/
theorem entry_W (c : Dev nD) :
    (V1 m ρ c main_v1 : Sud.Idx → EReal) = (m ((c.tc : Thread nD τ).loc main_arg1) : Sud.Idx → EReal) := by
  show (StableHlo.after hostOps0 (W0 m ρ c) (Proc.devRef .tc main_v1) : Sud.Idx → EReal) = _
  after_results <;> rfl

theorem entry_Ut (c : Dev nD) :
    V1 m ρ c main_v0 = transpose S1x512 [1, 0] (m ((c.tc : Thread nD τ).loc main_arg3) : FVec Ideal S512x1 .f32) Facts₀.transposes_S512x1_S1x512_1_0 := by
  show StableHlo.after hostOps0 (W0 m ρ c) (Proc.devRef .tc main_v0) = _
  after_results <;> rfl

/-- The scores over the row Uᵀ are the scores over the column U. -/
theorem blockScores_eq (H : Sbnu.Idx → EReal) (W : Sud.Idx → EReal) (B : S1d.Idx → EReal) (U : Sd1.Idx → EReal) :
    ScoresRegion.blockScores H W B
        (transpose S1x512 [1, 0] (U : FVec Ideal S512x1 .f32) Facts₀.transposes_S512x1_S1x512_1_0)
      = scores H W B U := by
  funext i
  unfold ScoresRegion.blockScores scores
  refine congrArg (fun u => scoreAt H W B u (i 0) (i 1)) (funext fun d => ?_)
  exact transpose_ix2_apply (U : (⟨2, ![512, 1]⟩ : Shape).Idx → EReal) Facts₀.transposes_S512x1_S1x512_1_0 (0 : Fin 1) d

/-- THE SCORE ARRAY between the two regions. -/
theorem scores_after (c : Dev nD) :
    W2 m ρ c (Proc.devRef .tc main_v2)
      = scores (m ((c.tc : Thread nD τ).loc main_arg0)) (m ((c.tc : Thread nD τ).loc main_arg1))
          (m ((c.tc : Thread nD τ).loc main_arg2)) (m ((c.tc : Thread nD τ).loc main_arg3)) := by
  refine ((W2_arr m ρ c 4).trans (ScoresRegion.final (V1 m ρ) c)).trans ?_
  rw [entry_H m ρ c, entry_B m ρ c, entry_W m ρ c, entry_Ut m ρ c]
  exact blockScores_eq _ _ _ _

/-! ## What the re-weighting region finds -/

/-- The weights: the softmax chain of the second host stretch applied to the score array. -/
theorem weights_entry (c : Dev nD) :
    V3 m ρ c main_v13
      = weights (m ((c.tc : Thread nD τ).loc main_arg0)) (m ((c.tc : Thread nD τ).loc main_arg1))
          (m ((c.tc : Thread nD τ).loc main_arg2)) (m ((c.tc : Thread nD τ).loc main_arg3)) := by
  show StableHlo.after hostOps1 (W2 m ρ c) (Proc.devRef .tc main_v13) = _
  have hs := scores_after m ρ c
  generalize W2 m ρ c = X at hs ⊢
  after_results
  rw [hs]
  rfl

/-- H as launched. -/
theorem second_entry_H (c : Dev nD) : V3 m ρ c main_arg0 = m ((c.tc : Thread nD τ).loc main_arg0) :=
  ((W4_arr m ρ c 0).trans (((dat1 (V3 m ρ) c).arrAt_in 0 rfl _).trans (A_eq1 (V3 m ρ) c 0))).symm.trans (W4_main_arg0 m ρ c)

/-! ## The two results -/

/-- The weights' buffer is an input of the second region: it leaves it as it found it. -/
theorem weights_after (c : Dev nD) :
    W4 m ρ c (Proc.devRef .tc main_v13)
      = weights (m ((c.tc : Thread nD τ).loc main_arg0)) (m ((c.tc : Thread nD τ).loc main_arg1))
          (m ((c.tc : Thread nD τ).loc main_arg2)) (m ((c.tc : Thread nD τ).loc main_arg3)) :=
  ((W4_arr m ρ c 1).trans (((dat1 (V3 m ρ) c).arrAt_in 1 rfl _).trans (A_eq1 (V3 m ρ) c 1))).trans (weights_entry m ρ c)

theorem output_after (c : Dev nD) :
    W4 m ρ c (Proc.devRef .tc main_v14)
      = output (m ((c.tc : Thread nD τ).loc main_arg0)) (m ((c.tc : Thread nD τ).loc main_arg1))
          (m ((c.tc : Thread nD τ).loc main_arg2)) (m ((c.tc : Thread nD τ).loc main_arg3)) := by
  refine ((W4_arr m ρ c 2).trans (ApplyRegion.final (V3 m ρ) c)).trans ?_
  rw [second_entry_H m ρ c, weights_entry m ρ c]
  rfl

/-- THE RUN, READ: every weakly fair execution terminates with the first result at the weighted rows of H, the second
    at the attention weights, and the arguments unchanged. -/
theorem run : θ_run defs (onTc (τ := τ) (main (F := Ideal))) ⟨m, fun _ => 0, ρ⟩ (fun r => ∀ c : Dev nD,
      r.2.mem ((c.tc : Thread nD τ).loc main_v14)
        = output (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v13)
        = weights (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (output_after m ρ c), (h c).2.1.trans (weights_after m ρ c), (h c).2.2⟩)
    (KernelRun.run_results m ρ)

end Cert.Attention.KernelValue

end
-- ==== Proof.ReferenceValue.lean ====
/-
  The reference's two results are the attention weights and the weighted rows of H.

  Its score array, read at (b, n, ·), is the contraction of tanh (H·W + B) with U over the hidden coordinate — the
  score of row n of sequence b —; its weights are the softmax chain applied to that array, operation for operation
  the chain the specification names; its output is H times the weights spread over each row.
-/
import proofs.«143345_j49520972923438_2_alg».proof.Proof.Gen.ReferenceIdeal.Read
import proofs.«143345_j49520972923438_2_alg».proof.Proof.Spec

noncomputable section

namespace Cert.Attention.Reference

open Idealize.ShloMosaic Idealize.ShloMosaic.ValueIdx Cert.ReferenceIdeal Cert.ReferenceIdeal.Read

variable (x0 : Sbnu.Idx → EReal) (x1 : Sud.Idx → EReal) (x2 : S1d.Idx → EReal) (x3 : Sd1.Idx → EReal)

/-- The reference's score array is the specification's. -/
theorem scores_eq : val_main_v5 (F := Ideal) x0 x1 x2 x3 = scores x0 x1 x2 x3 := by
  funext i
  rw [val_main_v5_apply]
  unfold scores scoreAt
  refine Finset.sum_congr rfl fun d _ => ?_
  have hz : (i 2).val = 0 := by have h1 : (i 2).val < 1 := (i 2).isLt; omega
  have e3 : ridx_main_v5 i d = ix2 d (0 : Fin 1) := funext fun a => Fin.ext (by
    match a with
    | ⟨0, _⟩ => rfl
    | ⟨1, _⟩ => exact hz)
  rw [e3]
  refine congrArg (· * x3 (ix2 d (0 : Fin 1))) ?_
  show Ideal.tanh (val_main_v0 (F := Ideal) x0 x1 (lidx_main_v5 i d) + val_main_v2 (F := Ideal) x2 (lidx_main_v5 i d)) = _
  rw [val_main_v0_apply, val_main_v2_apply, val_main_v1_apply]
  have e2 : idx_main_v1 (idx_main_v2 (lidx_main_v5 i d)) = ix2 (0 : Fin 1) d := funext fun a => Fin.ext (by
    match a with
    | ⟨0, _⟩ => rfl
    | ⟨1, _⟩ => rfl)
  rw [e2]
  refine congrArg (fun s => Ideal.tanh (s + x2 (ix2 (0 : Fin 1) d))) ?_
  refine Finset.sum_congr rfl fun k _ => ?_
  have el : lidx_main_v0 (lidx_main_v5 i d) k = ix3 (i 0) (i 1) k := funext fun a => Fin.ext (by
    match a with
    | ⟨0, _⟩ => rfl
    | ⟨1, _⟩ => rfl
    | ⟨2, _⟩ => rfl)
  have er : ridx_main_v0 (lidx_main_v5 i d) k = ix2 k d := funext fun a => Fin.ext (by
    match a with
    | ⟨0, _⟩ => rfl
    | ⟨1, _⟩ => rfl)
  rw [el, er]
  rfl

/-- The reference's softmax chain is the specification's, applied to the reference's scores. -/
theorem weights_chain : val_main_v16 (F := Ideal) x0 x1 x2 x3 = softmaxSeq (F := Ideal) (val_main_v5 (F := Ideal) x0 x1 x2 x3) := rfl

/-- The reference's second result. -/
theorem weights_eq : val_main_v16 (F := Ideal) x0 x1 x2 x3 = weights x0 x1 x2 x3 := by
  rw [weights_chain, scores_eq]; rfl

/-- The reference's first result. -/
theorem output_eq : val_main_v18 (F := Ideal) x0 x1 x2 x3 = output x0 x1 x2 x3 := by
  funext i
  rw [val_main_v18_apply, val_main_v17_apply, weights_eq]
  have e : idx_main_v17 i = ix3 (i 0) (i 1) (0 : Fin 1) := funext fun a => Fin.ext (by
    match a with
    | ⟨0, _⟩ => rfl
    | ⟨1, _⟩ => rfl
    | ⟨2, _⟩ => rfl)
  rw [e]; rfl

end Cert.Attention.Reference

end
-- ==== Proof.lean ====
/-
  Additive attention: a two-region kernel program against its jnp reference, equal at the exact reading.

  Both programs compute, from H [32, 2048, 1024], W [1024, 512], B [1, 512] and U [512, 1],
      score (b, n)     = Σ_d tanh (Σ_k H (b, n, k) · W (k, d) + B (0, d)) · U (d, 0),
      weight (b, ·)    = softmax of score (b, ·) along the sequence,
      output (b, n, k) = H (b, n, k) · weight (b, n),
  and return the output and the weights.

  The kernel program takes the scores in a first region, 1024 rows at a time: a matrix product accumulated from
  zero over a W narrowed to bf16 — at the exact reading no change, and the same sum over k —, the row B added, tanh,
  the row Uᵀ multiplied in and the row summed from zero — the same sum over d as the reference's contraction with U.
  The softmax between the two regions is, operation for operation, the reference's own chain of host operations; it
  is carried as one function of the score array and never opened.  The second region multiplies each block of rows
  of H by the weights of those rows.  The two sides are therefore the same finite sums of the same terms, and no
  use is made of the inputs being finite.

  The three frames are the generated ones (the reference's is its run with the results dropped); the idealization
  rewrote nothing, so there is nothing to preserve.
-/
import proofs.«143345_j49520972923438_2_alg».proof.Defs
import proofs.«143345_j49520972923438_2_alg».proof.Proof.Gen.Kernel
import proofs.«143345_j49520972923438_2_alg».proof.Proof.Gen.Kernel.Skeleton
import proofs.«143345_j49520972923438_2_alg».proof.Proof.Gen.Kernel.Launch
import proofs.«143345_j49520972923438_2_alg».proof.Proof.Gen.Kernel.Points
import proofs.«143345_j49520972923438_2_alg».proof.Proof.Gen.Kernel.Frame
import proofs.«143345_j49520972923438_2_alg».proof.Proof.Gen.KernelIdeal
import proofs.«143345_j49520972923438_2_alg».proof.Proof.Gen.KernelIdeal.Skeleton
import proofs.«143345_j49520972923438_2_alg».proof.Proof.Gen.KernelIdeal.Launch
import proofs.«143345_j49520972923438_2_alg».proof.Proof.Gen.KernelIdeal.Points
import proofs.«143345_j49520972923438_2_alg».proof.Proof.Gen.KernelIdeal.Frame
import proofs.«143345_j49520972923438_2_alg».proof.Proof.Gen.ReferenceIdeal
import proofs.«143345_j49520972923438_2_alg».proof.Proof.Gen.ReferenceIdeal.Run
import proofs.«143345_j49520972923438_2_alg».proof.Proof.Gen.ReferenceIdeal.Read
import proofs.«143345_j49520972923438_2_alg».proof.Proof.Gen.Pre_finite_inputs
import proofs.«143345_j49520972923438_2_alg».proof.Proof.KernelValue
import proofs.«143345_j49520972923438_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the weighted rows of H and the attention
    weights: the kernel program's run read region by region, the reference's read operation by operation. -/
theorem algebraic : Cert.algebraic_KernelIdeal_ReferenceIdeal := by
  intro m ρ m' ρ' _ hagree
  refine ⟨fun c => Cert.Attention.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Attention.weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.Attention.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.Attention.Reference.output_eq,
      (hagree c).1, (hagree c).2.1, (hagree c).2.2.1, (hagree c).2.2.2]
  · rw [Cert.ReferenceIdeal.Read.val_main_v16_eq, Cert.Attention.Reference.weights_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
